-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3200000 : Shape := ⟨2, ![2, 3200000]⟩
abbrev S3200000 : Shape := ⟨1, ![3200000]⟩
abbrev S100000x128 : Shape := ⟨2, ![100000, 128]⟩
abbrev S128x64 : Shape := ⟨2, ![128, 64]⟩
abbrev S1x64 : Shape := ⟨2, ![1, 64]⟩
abbrev S_ : Shape := ⟨0, ![]⟩

class Facts : Prop where
  bcast_S_S3200000 : S_.BroadcastsInDim S3200000 (![] : Fin 0 → Fin S3200000.rank)
  reducesTo_S3200000_S_d0 : S3200000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x64 : S_.BroadcastsInDim S128x64 (![] : Fin 0 → Fin S128x64.rank)
  reducesTo_S128x64_S_d0_1 : S128x64.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  main_v18

def fn {F : FTy → Type} [FloatOps F] (main_arg0 : IVec S2x3200000 32) (main_arg1 : FVec F S3200000 .f32) (main_arg2 : FVec F S100000x128 .f32) (main_arg3 : FVec F S128x64 .f32) (main_arg4 : FVec F S1x64 .f32) : IVec S_ 1 :=
  let main_v0 : FVec F S3200000 .f32 := Host.absf main_arg1
  let main_cst : FVec F S_ .f32 := constant S_ .f32 0x7F800000#32
  let main_v1 : FVec F S3200000 .f32 := broadcastInDim S3200000 ![] bcast_S_S3200000 main_cst
  let main_v2 : IVec S3200000 1 := cmpf .olt main_v0 main_v1
  let main_c : IVec S_ 1 := constantI S_ 1 1#1
  let main_v3 : IVec S_ 1 := (fun x v => Host.reduce IntOp.andi x v reducesTo_S3200000_S_d0 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_v13 main_v16
-- ==== Kernel.lean ====
abbrev S2x3200000 : Shape := ⟨2, ![2, 3200000]⟩
abbrev S3200000 : Shape := ⟨1, ![3200000]⟩
abbrev S100000x128 : Shape := ⟨2, ![100000, 128]⟩
abbrev S128x64 : Shape := ⟨2, ![128, 64]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S1x3200000 : Shape := ⟨2, ![1, 3200000]⟩
abbrev S3200000x1 : Shape := ⟨2, ![3200000, 1]⟩
abbrev S_ : Shape := ⟨0, ![]⟩
abbrev S3200000x64 : Shape := ⟨2, ![3200000, 64]⟩
abbrev S8000x64 : Shape := ⟨2, ![8000, 64]⟩
abbrev S8000x1 : Shape := ⟨2, ![8000, 1]⟩

abbrev nBuf : Space → Nat
  | .hbm => 40
  | .vmem => 22
  | .smem => 0
  | _ => 0

abbrev bufTy : (tb : Table) → Fin (tcTables nBuf tb) → BufTy
  | .hbm, ⟨0, _⟩ => ⟨S2x3200000, .i32⟩
  | .hbm, ⟨1, _⟩ => ⟨S3200000, .f32⟩
  | .hbm, ⟨2, _⟩ => ⟨S100000x128, .f32⟩
  | .hbm, ⟨3, _⟩ => ⟨S128x64, .f32⟩
  | .hbm, ⟨4, _⟩ => ⟨S1x64, .f32⟩
  | .hbm, ⟨5, _⟩ => ⟨S100000x64, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S3200000x1, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x64, .f32⟩
  | .hbm, ⟨20, _⟩ => ⟨S3200000x64, .f32⟩
  | .hbm, ⟨21, _⟩ => ⟨S_, .f32⟩
  | .hbm, ⟨22, _⟩ => ⟨S100000x64, .f32⟩
  | .hbm, ⟨23, _⟩ => ⟨S3200000x1, .i32⟩
  | .hbm, ⟨24, _⟩ => ⟨S100000x64, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000x64, .f32⟩
  | .hbm, ⟨34, _⟩ => ⟨S3200000x64, .f32⟩
  | .hbm, ⟨35, _⟩ => ⟨S_, .f32⟩
  | .hbm, ⟨36, _⟩ => ⟨S100000x64, .f32⟩
  | .hbm, ⟨37, _⟩ => ⟨S3200000x1, .i32⟩
  | .hbm, ⟨38, _⟩ => ⟨S100000x64, .f32⟩
  | .hbm, ⟨39, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S8000x64, .f32⟩
  | .local _ .vmem, ⟨6, _⟩ => ⟨S8000x64, .f32⟩
  | .local _ .vmem, ⟨7, _⟩ => ⟨S8000x1, .f32⟩
  | .local _ .vmem, ⟨8, _⟩ => ⟨S8000x1, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | .local _ .vmem, ⟨12, _⟩ => ⟨S8000x64, .f32⟩
  | .local _ .vmem, ⟨13, _⟩ => ⟨S8000x1, .f32⟩
  | .local _ .vmem, ⟨14, _⟩ => ⟨S8000x1, .f32⟩
  | .local _ .vmem, ⟨15, _⟩ => ⟨S8000x64, .f32⟩
  | .local _ .vmem, ⟨16, _⟩ => ⟨S8000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S2x3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S3200000_S3200000x1_0 : S3200000.BroadcastsInDim S3200000x1 (![0] : Fin 1 → Fin S3200000x1.rank)
  bcast_S_S3200000 : S_.BroadcastsInDim S3200000 (![] : Fin 0 → Fin S3200000.rank)
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S100000x64 : S_.BroadcastsInDim S100000x64 (![] : Fin 0 → Fin S100000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  dot_S10000x128_S128x64_S10000x64_1_0_0_1_n_n_wf : DotDims.WF S10000x128 S128x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S3200000x64.size a
  hwx1_0 : ∀ i : grid1.Coords, EltTy.bits .f32 = 32 ∨ (Rect.block (s := S3200000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S3200000x1.size a
  hwx1_1 : ∀ i : grid1.Coords, EltTy.bits .f32 = 32 ∨ (Rect.block (s := S3200000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S3200000x64.size a
  hwx1_2 : ∀ i : grid1.Coords, EltTy.bits .f32 = 32 ∨ (Rect.block (s := S3200000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S3200000x64.size a
  hwx2_0 : ∀ i : grid2.Coords, EltTy.bits .f32 = 32 ∨ (Rect.block (s := S3200000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S3200000x1.size a
  hwx2_1 : ∀ i : grid2.Coords, EltTy.bits .f32 = 32 ∨ (Rect.block (s := S3200000x1) S8000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S3200000x64.size a
  hwx2_2 : ∀ i : grid2.Coords, EltTy.bits .f32 = 32 ∨ (Rect.block (s := S3200000x64) S8000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg2) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v23) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v27) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v28) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S2x3200000 : Shape := ⟨2, ![2, 3200000]⟩
abbrev S3200000 : Shape := ⟨1, ![3200000]⟩
abbrev S100000x128 : Shape := ⟨2, ![100000, 128]⟩
abbrev S128x64 : Shape := ⟨2, ![128, 64]⟩
abbrev S1x64 : Shape := ⟨2, ![1, 64]⟩
abbrev S100000x64 : Shape := ⟨2, ![100000, 64]⟩
abbrev S1x3200000 : Shape := ⟨2, ![1, 3200000]⟩
abbrev S3200000x1 : Shape := ⟨2, ![3200000, 1]⟩
abbrev S_ : Shape := ⟨0, ![]⟩
abbrev S3200000x64 : Shape := ⟨2, ![3200000, 64]⟩

abbrev nBuf : Space → Nat
  | .hbm => 44
  | .vmem => 0
  | .smem => 0
  | _ => 0

abbrev bufTy : (tb : Table) → Fin (tcTables nBuf tb) → BufTy
  | .hbm, ⟨0, _⟩ => ⟨S2x3200000, .i32⟩
  | .hbm, ⟨1, _⟩ => ⟨S3200000, .f32⟩
  | .hbm, ⟨2, _⟩ => ⟨S100000x128, .f32⟩
  | .hbm, ⟨3, _⟩ => ⟨S128x64, .f32⟩
  | .hbm, ⟨4, _⟩ => ⟨S1x64, .f32⟩
  | .hbm, ⟨5, _⟩ => ⟨S100000x64, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S3200000x1, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x64, .f32⟩
  | .hbm, ⟨20, _⟩ => ⟨S3200000x64, .f32⟩
  | .hbm, ⟨21, _⟩ => ⟨S3200000x64, .f32⟩
  | .hbm, ⟨22, _⟩ => ⟨S_, .f32⟩
  | .hbm, ⟨23, _⟩ => ⟨S100000x64, .f32⟩
  | .hbm, ⟨24, _⟩ => ⟨S3200000x1, .i32⟩
  | .hbm, ⟨25, _⟩ => ⟨S100000x64, .f32⟩
  | .hbm, ⟨26, _⟩ => ⟨S3200000x1, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x64, .f32⟩
  | .hbm, ⟨36, _⟩ => ⟨S3200000x64, .f32⟩
  | .hbm, ⟨37, _⟩ => ⟨S3200000x64, .f32⟩
  | .hbm, ⟨38, _⟩ => ⟨S_, .f32⟩
  | .hbm, ⟨39, _⟩ => ⟨S100000x64, .f32⟩
  | .hbm, ⟨40, _⟩ => ⟨S3200000x1, .i32⟩
  | .hbm, ⟨41, _⟩ => ⟨S100000x64, .f32⟩
  | .hbm, ⟨42, _⟩ => ⟨S100000x64, .f32⟩
  | .hbm, ⟨43, _⟩ => ⟨S100000x64, .f32⟩
  | _, _ => ⟨S2x3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.KernelRun.lean ====
/-
  The kernel program's run with its result named: every weakly fair execution from the launch terminates without a
  fault, the result buffer ends at the last boundary's contents, and the five argument arrays end as launched. It is the
  launch over the program's seven segments — four passes on the device among three stretches of host operations — read at
  the result buffer as well as at the arguments.
-/
import proofs.«148761_j13357348290975_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the contents of the last boundary. -/
theorem run_result : θ_run defs (onTc (τ := τ) (main (F := F))) ⟨m, fun _ => 0, ρ⟩ (fun r => ∀ c : Dev nD,
      r.2.mem ((c.tc : Thread nD τ).loc main_v28) = W7 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v28 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Val

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRows.lean ====
/-
  A row vector laid along the rows of a matrix, in the two spellings a kernel and a host program give it.

  A vector `x` of `n` entries becomes the one-row matrix `y` with `y (0, j) = x j` either by a reshape or by a
  broadcast along axis 1: the two are one function (`shapeCast_row_eq_broadcastInDim`).  A one-row matrix `y` is laid
  down `m` rows, `(r, j) ↦ y (0, j)`, either by a broadcast of the vector (preceded by a cast of the one-row matrix to
  its own shape) or by a broadcast along both axes: again one function (`broadcastTo_oneRow_eq_broadcastInDim`).
-/
import Idealize.ShloMosaic.Lib.Pipeline.Value
import Idealize.ShloMosaic.Lib.ValueIdx
import Idealize.ShloMosaic.Lib.KernelVsHost

namespace Cert.LibRows

open Idealize.ShloMosaic Idealize.ShloMosaic.ValueIdx

variable {α : Type}

/-- A vector read as a one-row matrix: the reshape `[n] → [1, n]` and the broadcast along axis 1 both put entry `j`
    at `(0, j)`. -/
theorem shapeCast_row_eq_broadcastInDim {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val < 1 := (i 0).isLt
  have e2 := shapeCast_apply x h1 i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have e : (i 1).val < n := (i 1).isLt; omega
      · rfl)
  exact e2.trans e3.symm

/-- The kernel's broadcast of a one-row matrix (cast to its own shape first) down `m` rows, read at `(r, j)`: the
    row's entry `(0, j)`. -/
theorem broadcastTo_oneRow_apply {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ y hs) hb (ix2 p q) = y (ix2 (0 : Fin 1) q) := by
  rw [shapeCast_self]
  refine broadcastTo_apply y hb _ (ix2 (0 : Fin 1) q) ?_
  intro a
  match a with
  | ⟨0, _⟩ => rfl
  | ⟨1, _⟩ =>
    show q.val = if n = 1 then 0 else q.val
    split
    · have e : q.val < n := q.isLt; omega
    · rfl

/-- A one-row matrix laid down `m` rows: the kernel's broadcast of its same-shape cast is the host's broadcast along
    both axes; at `(r, j)` both read `y (0, j)`. -/
theorem broadcastTo_oneRow_eq_broadcastInDim {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ (shapeCast ⟨2, ![1, n]⟩ y hs) hb = broadcastInDim ⟨2, ![m, n]⟩ ![0, 1] hd y := by
  funext i
  obtain ⟨p, q, rfl⟩ : ∃ (p : Fin m) (q : Fin n), i = ix2 p q := ⟨i 0, i 1, eq_ix2 i⟩
  rw [broadcastInDim_oneRow_apply, broadcastTo_oneRow_apply]

end Cert.LibRows
-- ==== Proof.Payloads.lean ====
/-
  What each of the four kernel bodies stores, read at one index of its output block, on the extended reals.

  * the projection body: entry (p, q) of the block is the sum over the 128 input channels of the products of row p of
    the feature block with column q of the weight (the change of format before the product is the identity, the zero
    accumulator adds nothing);
  * the two edge-scaling bodies: entry (p, q) is the gathered entry (p, q) times the edge's value, which sits in the
    one column of the value block at row p;
  * the bias body: entry (p, q) is the entry (p, q) of the aggregated block plus entry q of the one-row bias.
-/
import proofs.«148761_j13357348290975_2_alg».proof.Proof.Gen.KernelIdeal.Skeleton
import proofs.«148761_j13357348290975_2_alg».proof.Proof.LibDotIdx
import proofs.«148761_j13357348290975_2_alg».proof.Proof.LibKeepdims
import proofs.«148761_j13357348290975_2_alg».proof.Proof.LibRows
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The projection body's block at (p, q): the sum over the channels. -/
theorem proj_apply (x0 : Vec Ideal S10000x128 .f32) (x1 : Vec Ideal S128x64 .f32) (p : Fin 10000) (q : Fin 64) :
    k0_pay1 (F := Ideal) x0 x1 (ix2 p q) = ∑ c : Fin 128, x0 (ix2 p c) * x1 (ix2 c q) := by
  unfold k0_pay1
  exact DotIdx.matmul_plain_zero_apply (m := 10000) (k := 128) (n := 64) dot_S10000x128_S128x64_S10000x64_1_0_0_1_n_n_wf none x0 x1 p q

/-- The first edge-scaling body's block at (p, q): the gathered entry times the edge's value. -/
theorem scale1_apply (v : Vec Ideal S8000x1 .f32) (g : Vec Ideal S8000x64 .f32) (p : Fin 8000) (q : Fin 64) :
    k1_pay1 (F := Ideal) v g (ix2 p q) = g (ix2 p q) * v (ix2 p (0 : Fin 1)) := by
  unfold k1_pay1
  simp only [shapeCast_self]
  show FloatOps.mulf (g (ix2 p q)) (@broadcastTo S8000x1 (Ideal .f32) S8000x64 v broadcasts_S8000x1_S8000x64 (ix2 p q)) = _
  rw [Cert.SupCon.Ker.broadcastTo_a1_ab_apply (α := Ideal .f32) (a := 8000) (b := 64) v broadcasts_S8000x1_S8000x64 p q]
  rfl

/-- The second edge-scaling body's block at (p, q): the same function. -/
theorem scale2_apply (v : Vec Ideal S8000x1 .f32) (g : Vec Ideal S8000x64 .f32) (p : Fin 8000) (q : Fin 64) :
    k2_pay1 (F := Ideal) v g (ix2 p q) = g (ix2 p q) * v (ix2 p (0 : Fin 1)) := by
  unfold k2_pay1
  simp only [shapeCast_self]
  show FloatOps.mulf (g (ix2 p q)) (@broadcastTo S8000x1 (Ideal .f32) S8000x64 v broadcasts_S8000x1_S8000x64 (ix2 p q)) = _
  rw [Cert.SupCon.Ker.broadcastTo_a1_ab_apply (α := Ideal .f32) (a := 8000) (b := 64) v broadcasts_S8000x1_S8000x64 p q]
  rfl

/-- The bias body's block at (p, q): the aggregated entry plus the bias of column q. -/
theorem bias_apply (b : Vec Ideal S1x64 .f32) (x : Vec Ideal S10000x64 .f32) (p : Fin 10000) (q : Fin 64) :
    k3_pay1 (F := Ideal) b x (ix2 p q) = x (ix2 p q) + b (ix2 (0 : Fin 1) q) := by
  unfold k3_pay1
  show FloatOps.addf (@shapeCast S10000x64 (Ideal .f32) S10000x64 x shapeCasts_S10000x64_S10000x64 (ix2 p q))
      (@broadcastTo S1x64 (Ideal .f32) S10000x64 (@shapeCast S1x64 (Ideal .f32) S1x64 b shapeCasts_S1x64_S1x64) broadcasts_S1x64_S10000x64 (ix2 p q)) = _
  rw [shapeCast_self,
    Cert.LibRows.broadcastTo_oneRow_apply (α := Ideal .f32) (m := 10000) (n := 64) b shapeCasts_S1x64_S1x64 broadcasts_S1x64_S10000x64 p q]
  rfl

/-! ## The same four readings at any index of the block -/

theorem proj_idx (x0 : Vec Ideal S10000x128 .f32) (x1 : Vec Ideal S128x64 .f32) (y : S10000x64.Idx) :
    k0_pay1 (F := Ideal) x0 x1 y = ∑ c : Fin 128, x0 (ix2 (y 0) c) * x1 (ix2 c (y 1)) := by
  obtain ⟨p, q, rfl⟩ : ∃ (p : Fin 10000) (q : Fin 64), y = ix2 p q := ⟨y 0, y 1, eq_ix2 y⟩
  exact proj_apply x0 x1 p q

theorem scale1_idx (v : Vec Ideal S8000x1 .f32) (g : Vec Ideal S8000x64 .f32) (y : S8000x64.Idx) :
    k1_pay1 (F := Ideal) v g y = g y * v (ix2 (y 0) (0 : Fin 1)) := by
  obtain ⟨p, q, rfl⟩ : ∃ (p : Fin 8000) (q : Fin 64), y = ix2 p q := ⟨y 0, y 1, eq_ix2 y⟩
  exact scale1_apply v g p q

theorem scale2_idx (v : Vec Ideal S8000x1 .f32) (g : Vec Ideal S8000x64 .f32) (y : S8000x64.Idx) :
    k2_pay1 (F := Ideal) v g y = g y * v (ix2 (y 0) (0 : Fin 1)) := by
  obtain ⟨p, q, rfl⟩ : ∃ (p : Fin 8000) (q : Fin 64), y = ix2 p q := ⟨y 0, y 1, eq_ix2 y⟩
  exact scale2_apply v g p q

theorem bias_idx (b : Vec Ideal S1x64 .f32) (x : Vec Ideal S10000x64 .f32) (y : S10000x64.Idx) :
    k3_pay1 (F := Ideal) b x y = x y + b (ix2 (0 : Fin 1) (y 1)) := by
  obtain ⟨p, q, rfl⟩ : ∃ (p : Fin 10000) (q : Fin 64), y = ix2 p q := ⟨y 0, y 1, eq_ix2 y⟩
  exact bias_apply b x p q

end Cert.KernelIdeal.Pay

end
-- ==== Proof.ProjPass.lean ====
/-
  The first pass of the layer: the dense projection of the node features, ten blocks of 10000 rows. Block t of the
  output is rows 10000 t … 10000 t + 9999 of the product; the feature block moves with it, the weight block is the
  whole weight at every point. So after the pass entry (r, q) of the output array is the sum over the 128 input
  channels of features (r, c) · weight (c, q).
-/
import proofs.«148761_j13357348290975_2_alg».proof.Proof.Gen.KernelIdeal.Frame
import proofs.«148761_j13357348290975_2_alg».proof.Proof.Payloads
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The matrix product of `A` (100000 × 128) and `B` (128 × 64), entry by entry. -/
def dense (A : S100000x128.Idx → Elt Ideal .f32) (B : S128x64.Idx → Elt Ideal .f32) : S100000x64.Idx → Elt Ideal .f32 :=
  fun i => ∑ k : Fin 128, A (ix2 (i 0) k) * B (ix2 k (i 1))

theorem hz0 : (![0, 0] : Fin 2 → Nat) = fun _ => 0 := funext fun a => by fin_cases a <;> rfl

/-- The block indices of the three windows at grid point t: the row block is t, every other index 0. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the product of the two input arrays. -/
theorem flushedProj (c : Dev nD) (t : Fin cfg0.N) :
    (dat0 V c).flushed 2 t = ((cfg0.win 2).blk t).view.read (Elt Ideal) (dense (V c main_arg2) (V c main_arg3)) := by
  show (cfg0.win 2).cut (grid0.coords t) ((dat0 V c).after 2 t) = _
  rw [after0_2]
  unfold out0_2
  rw [View.canon_unit_zero hz0]
  simp only [View.ld_unit_zero (S := S10000x128) hz0, View.ld_unit_zero (S := S128x64) hz0]
  obtain ⟨e0, e1, e2, e3, e4, e5⟩ := blockIdx0 t
  funext j
  show k0_pay1 (iblk0 V c 0 t) (iblk0 V c 1 t) j = dense (V c main_arg2) (V c main_arg3) (((cfg0.win 2).blk t).view.emb j)
  refine (Pay.proj_idx _ _ j).trans ?_
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  exact congrArg₂ (fun (a b : Ideal .f32) => a * b) (congrArg (V c main_arg2) h0) (congrArg (V c main_arg3) h1)

/-- An index of the output array is in point t's block iff each coordinate is in the block's range. -/
theorem memBlkProj (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Row r of the output lies in block r / 10000. -/
theorem coverProj (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 10000 < cfg0.N := by rw [show cfg0.N = 10 from N_0]; omega
  refine ⟨⟨(i 0).val / 10000, ht⟩, flush0_2 _, ?_⟩
  rw [memBlkProj]
  obtain ⟨e0, e1, e2, e3, e4, e5⟩ := blockIdx0 ⟨(i 0).val / 10000, ht⟩
  have e4' : win0_2.index ⟨(i 0).val / 10000, ht⟩ (0 : Fin 2) = (i 0).val / 10000 := e4
  intro a
  match a with
  | ⟨0, _⟩ => show win0_2.index ⟨(i 0).val / 10000, ht⟩ (0 : Fin 2) * 10000 ≤ (i 0).val ∧ (i 0).val < win0_2.index ⟨(i 0).val / 10000, ht⟩ (0 : Fin 2) * 10000 + 10000; omega
  | ⟨1, _⟩ => show win0_2.index ⟨(i 0).val / 10000, ht⟩ (1 : Fin 2) * 64 ≤ (i 1).val ∧ (i 1).val < win0_2.index ⟨(i 0).val / 10000, ht⟩ (1 : Fin 2) * 64 + 64; omega

/-- After the pass the output array is the product of the two input arrays as the pass finds them. -/
theorem finalProj (c : Dev nD) : (dat0 V c).arrAt 2 cfg0.N = dense (V c main_arg2) (V c main_arg3) :=
  (dat0 V c).arrAt_eq_of_cover 2 _ (fun t _ => flushedProj V c t) coverProj

end Cert.KernelIdeal.Val

end
-- ==== Proof.ScalePass1.lean ====
/-
  The edge-scaling pass of the first propagation step: the gathered rows, one per edge, 400 blocks of 8000 edges; each
  row is multiplied by its edge's value. Block t of the output is edges 8000 t … 8000 t + 7999; the gathered block and
  the value block move with it. So after the pass row e of the output array is row e of the gathered array times the
  value of edge e.
-/
import proofs.«148761_j13357348290975_2_alg».proof.Proof.Gen.KernelIdeal.Frame
import proofs.«148761_j13357348290975_2_alg».proof.Proof.Payloads
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Every row of the gathered array `g` (one row per edge) times that edge's value, the one entry of row r of `v`. -/
def scaleRows (g : S3200000x64.Idx → Elt Ideal .f32) (v : S3200000x1.Idx → Elt Ideal .f32) : S3200000x64.Idx → Elt Ideal .f32 :=
  fun i => g i * v (ix2 (i 0) (0 : Fin 1))

theorem hzS1 : (![0, 0] : Fin 2 → Nat) = fun _ => 0 := funext fun a => by fin_cases a <;> rfl

/-- The block indices of the three windows at grid point t: the row block is t, every other index 0. -/
theorem blockIdx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What grid point t writes back is block t of `scaleRows` of the two input arrays. -/
theorem flushedScale1 (c : Dev nD) (t : Fin cfg1.N) :
    (dat1 V c).flushed 2 t = ((cfg1.win 2).blk t).view.read (Elt Ideal) (scaleRows (V c main_v12) (V c main_v5)) := by
  show (cfg1.win 2).cut (grid1.coords t) ((dat1 V c).after 2 t) = _
  rw [after1_2]
  unfold out1_2
  rw [View.canon_unit_zero hzS1]
  simp only [View.ld_unit_zero (S := S8000x1) hzS1, View.ld_unit_zero (S := S8000x64) hzS1]
  obtain ⟨e0, e1, e2, e3, e4, e5⟩ := blockIdx1 t
  funext j
  show k1_pay1 (iblk1 V c 1 t) (iblk1 V c 0 t) j = scaleRows (V c main_v12) (V c main_v5) (((cfg1.win 2).blk t).view.emb j)
  refine (Pay.scale1_idx _ _ j).trans ?_
  have h0 : ((cfg1.win 0).blk t).view.emb j = ((cfg1.win 2).blk t).view.emb j := by
    funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (j 0) (0 : Fin 1)) = ix2 ((((cfg1.win 2).blk t).view.emb j) 0) (0 : Fin 1) := by
    funext a; apply Fin.ext
    match a with
    | ⟨0, _⟩ => show win1_1.index t (0 : Fin 2) * 8000 + 1 * (j 0).val = win1_2.index t (0 : Fin 2) * 8000 + 1 * (j 0).val; omega
    | ⟨1, _⟩ => show win1_1.index t (1 : Fin 2) * 1 + 1 * 0 = 0; omega
  exact congrArg₂ (fun (a b : Ideal .f32) => a * b) (congrArg (V c main_v12) h0) (congrArg (V c main_v5) h1)

/-- An index of the output array is in point t's block iff each coordinate is in the block's range. -/
theorem memBlkScale1 (t : Fin cfg1.N) (i : S3200000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v13).slice (win1_2.rect t)).set ↔ _
  rw [View.set_slice_whole, Rect.mem_set_unit]
  exact Iff.rfl

/-- Edge e of the output lies in block e / 8000. -/
theorem coverScale1 (i : S3200000x64.Idx) :
    ∃ t : Fin cfg1.N, (cfg1.win 2).flush t = true ∧ i ∈ ((cfg1.win 2).blk t).view.set := by
  have hi0 : (i 0).val < 3200000 := (i 0).isLt
  have hi1 : (i 1).val < 64 := (i 1).isLt
  have ht : (i 0).val / 8000 < cfg1.N := by rw [show cfg1.N = 400 from N_1]; omega
  refine ⟨⟨(i 0).val / 8000, ht⟩, flush1_2 _, ?_⟩
  rw [memBlkScale1]
  obtain ⟨e0, e1, e2, e3, e4, e5⟩ := blockIdx1 ⟨(i 0).val / 8000, ht⟩
  have e4' : win1_2.index ⟨(i 0).val / 8000, ht⟩ (0 : Fin 2) = (i 0).val / 8000 := e4
  intro a
  match a with
  | ⟨0, _⟩ => show win1_2.index ⟨(i 0).val / 8000, ht⟩ (0 : Fin 2) * 8000 ≤ (i 0).val ∧ (i 0).val < win1_2.index ⟨(i 0).val / 8000, ht⟩ (0 : Fin 2) * 8000 + 8000; omega
  | ⟨1, _⟩ => show win1_2.index ⟨(i 0).val / 8000, ht⟩ (1 : Fin 2) * 64 ≤ (i 1).val ∧ (i 1).val < win1_2.index ⟨(i 0).val / 8000, ht⟩ (1 : Fin 2) * 64 + 64; omega

/-- After the pass the output array is `scaleRows` of the two input arrays as the pass finds them. -/
theorem finalScale1 (c : Dev nD) : (dat1 V c).arrAt 2 cfg1.N = scaleRows (V c main_v12) (V c main_v5) :=
  (dat1 V c).arrAt_eq_of_cover 2 _ (fun t _ => flushedScale1 V c t) coverScale1

end Cert.KernelIdeal.Val

end
-- ==== Proof.ScalePass2.lean ====
/-
  The edge-scaling pass of the second propagation step: the same pass as the first step's, on the rows gathered from
  the first step's result. Row e of the output array is row e of the gathered array times the value of edge e.
-/
import proofs.«148761_j13357348290975_2_alg».proof.Proof.Gen.KernelIdeal.Frame
import proofs.«148761_j13357348290975_2_alg».proof.Proof.Payloads
import Idealize.ShloMosaic.Lib.Pipeline.Value
import Idealize.ShloMosaic.Lib.ValueIdx
import proofs.«148761_j13357348290975_2_alg».proof.Proof.ScalePass1

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hzS2 : (![0, 0] : Fin 2 → Nat) = fun _ => 0 := funext fun a => by fin_cases a <;> rfl

/-- The block indices of the three windows at grid point t: the row block is t, every other index 0. -/
theorem blockIdx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What grid point t writes back is block t of `scaleRows` of the two input arrays. -/
theorem flushedScale2 (c : Dev nD) (t : Fin cfg2.N) :
    (dat2 V c).flushed 2 t = ((cfg2.win 2).blk t).view.read (Elt Ideal) (scaleRows (V c main_v23) (V c main_v5)) := by
  show (cfg2.win 2).cut (grid2.coords t) ((dat2 V c).after 2 t) = _
  rw [after2_2]
  unfold out2_2
  rw [View.canon_unit_zero hzS2]
  simp only [View.ld_unit_zero (S := S8000x1) hzS2, View.ld_unit_zero (S := S8000x64) hzS2]
  obtain ⟨e0, e1, e2, e3, e4, e5⟩ := blockIdx2 t
  funext j
  show k2_pay1 (iblk2 V c 1 t) (iblk2 V c 0 t) j = scaleRows (V c main_v23) (V c main_v5) (((cfg2.win 2).blk t).view.emb j)
  refine (Pay.scale2_idx _ _ j).trans ?_
  have h0 : ((cfg2.win 0).blk t).view.emb j = ((cfg2.win 2).blk t).view.emb j := by
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix2 (j 0) (0 : Fin 1)) = ix2 ((((cfg2.win 2).blk t).view.emb j) 0) (0 : Fin 1) := by
    funext a; apply Fin.ext
    match a with
    | ⟨0, _⟩ => show win2_1.index t (0 : Fin 2) * 8000 + 1 * (j 0).val = win2_2.index t (0 : Fin 2) * 8000 + 1 * (j 0).val; omega
    | ⟨1, _⟩ => show win2_1.index t (1 : Fin 2) * 1 + 1 * 0 = 0; omega
  exact congrArg₂ (fun (a b : Ideal .f32) => a * b) (congrArg (V c main_v23) h0) (congrArg (V c main_v5) h1)

/-- An index of the output array is in point t's block iff each coordinate is in the block's range. -/
theorem memBlkScale2 (t : Fin cfg2.N) (i : S3200000x64.Idx) :
    i ∈ ((cfg2.win 2).blk t).view.set ↔ ∀ a : Fin 2, win2_2.index t a * S8000x64.size a ≤ (i a).val ∧ (i a).val < win2_2.index t a * S8000x64.size a + S8000x64.size a := by
  show i ∈ ((View.whole main_v24).slice (win2_2.rect t)).set ↔ _
  rw [View.set_slice_whole, Rect.mem_set_unit]
  exact Iff.rfl

/-- Edge e of the output lies in block e / 8000. -/
theorem coverScale2 (i : S3200000x64.Idx) :
    ∃ t : Fin cfg2.N, (cfg2.win 2).flush t = true ∧ i ∈ ((cfg2.win 2).blk t).view.set := by
  have hi0 : (i 0).val < 3200000 := (i 0).isLt
  have hi1 : (i 1).val < 64 := (i 1).isLt
  have ht : (i 0).val / 8000 < cfg2.N := by rw [show cfg2.N = 400 from N_2]; omega
  refine ⟨⟨(i 0).val / 8000, ht⟩, flush2_2 _, ?_⟩
  rw [memBlkScale2]
  obtain ⟨e0, e1, e2, e3, e4, e5⟩ := blockIdx2 ⟨(i 0).val / 8000, ht⟩
  have e4' : win2_2.index ⟨(i 0).val / 8000, ht⟩ (0 : Fin 2) = (i 0).val / 8000 := e4
  intro a
  match a with
  | ⟨0, _⟩ => show win2_2.index ⟨(i 0).val / 8000, ht⟩ (0 : Fin 2) * 8000 ≤ (i 0).val ∧ (i 0).val < win2_2.index ⟨(i 0).val / 8000, ht⟩ (0 : Fin 2) * 8000 + 8000; omega
  | ⟨1, _⟩ => show win2_2.index ⟨(i 0).val / 8000, ht⟩ (1 : Fin 2) * 64 ≤ (i 1).val ∧ (i 1).val < win2_2.index ⟨(i 0).val / 8000, ht⟩ (1 : Fin 2) * 64 + 64; omega

/-- After the pass the output array is `scaleRows` of the two input arrays as the pass finds them. -/
theorem finalScale2 (c : Dev nD) : (dat2 V c).arrAt 2 cfg2.N = scaleRows (V c main_v23) (V c main_v5) :=
  (dat2 V c).arrAt_eq_of_cover 2 _ (fun t _ => flushedScale2 V c t) coverScale2

end Cert.KernelIdeal.Val

end
-- ==== Proof.BiasPass.lean ====
/-
  The last pass of the layer: the aggregated node features, ten blocks of 10000 rows, each row plus the one-row bias.
  Block t of the output is rows 10000 t … 10000 t + 9999; the bias block is the whole bias at every point. So after
  the pass the output array is, entry by entry, the input entry plus the bias of its column.
-/
import proofs.«148761_j13357348290975_2_alg».proof.Proof.Gen.KernelIdeal.Frame
import proofs.«148761_j13357348290975_2_alg».proof.Proof.Payloads
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Every row of `x` plus the one-row `b`. -/
def addBias (x : S100000x64.Idx → Elt Ideal .f32) (b : S1x64.Idx → Elt Ideal .f32) : S100000x64.Idx → Elt Ideal .f32 :=
  fun i => x i + b (ix2 (0 : Fin 1) (i 1))

theorem hz3 : (![0, 0] : Fin 2 → Nat) = fun _ => 0 := funext fun a => by fin_cases a <;> rfl

/-- The block indices of the three windows at grid point t: the row block is t, every other index 0. -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of `addBias` of the two input arrays. -/
theorem flushedBias (c : Dev nD) (t : Fin cfg3.N) :
    (dat3 V c).flushed 2 t = ((cfg3.win 2).blk t).view.read (Elt Ideal) (addBias (V c main_v27) (V c main_arg4)) := by
  show (cfg3.win 2).cut (grid3.coords t) ((dat3 V c).after 2 t) = _
  rw [after3_2]
  unfold out3_2
  rw [View.canon_unit_zero hz3]
  simp only [View.ld_unit_zero (S := S1x64) hz3, View.ld_unit_zero (S := S10000x64) hz3]
  obtain ⟨e0, e1, e2, e3, e4, e5⟩ := blockIdx3 t
  funext j
  show k3_pay1 (iblk3 V c 1 t) (iblk3 V c 0 t) j = addBias (V c main_v27) (V c main_arg4) (((cfg3.win 2).blk t).view.emb j)
  refine (Pay.bias_idx _ _ j).trans ?_
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (ix2 (0 : Fin 1) (j 1)) = ix2 (0 : Fin 1) ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  exact congrArg₂ (fun (a b : Ideal .f32) => a + b) (congrArg (V c main_v27) h0) (congrArg (V c main_arg4) h1)

/-- An index of the output array is in point t's block iff each coordinate is in the block's range. -/
theorem memBlkBias (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v28).slice (win3_2.rect t)).set ↔ _
  rw [View.set_slice_whole, Rect.mem_set_unit]
  exact Iff.rfl

/-- Row r of the output lies in block r / 10000. -/
theorem coverBias (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have ht : (i 0).val / 10000 < cfg3.N := by rw [show cfg3.N = 10 from N_3]; omega
  refine ⟨⟨(i 0).val / 10000, ht⟩, flush3_2 _, ?_⟩
  rw [memBlkBias]
  obtain ⟨e0, e1, e2, e3, e4, e5⟩ := blockIdx3 ⟨(i 0).val / 10000, ht⟩
  have e4' : win3_2.index ⟨(i 0).val / 10000, ht⟩ (0 : Fin 2) = (i 0).val / 10000 := e4
  intro a
  match a with
  | ⟨0, _⟩ => show win3_2.index ⟨(i 0).val / 10000, ht⟩ (0 : Fin 2) * 10000 ≤ (i 0).val ∧ (i 0).val < win3_2.index ⟨(i 0).val / 10000, ht⟩ (0 : Fin 2) * 10000 + 10000; omega
  | ⟨1, _⟩ => show win3_2.index ⟨(i 0).val / 10000, ht⟩ (1 : Fin 2) * 64 ≤ (i 1).val ∧ (i 1).val < win3_2.index ⟨(i 0).val / 10000, ht⟩ (1 : Fin 2) * 64 + 64; omega

/-- After the pass the output array is `addBias` of the two input arrays as the pass finds them. -/
theorem finalBias (c : Dev nD) : (dat3 V c).arrAt 2 cfg3.N = addBias (V c main_v27) (V c main_arg4) :=
  (dat3 V c).arrAt_eq_of_cover 2 _ (fun t _ => flushedBias V c t) coverBias

end Cert.KernelIdeal.Val

end
-- ==== Proof.HostFns.lean ====
/-
  The host steps between the kernel's four passes, named as functions of array contents: the two rows of the edge
  index array as vectors, the gather's start indices (a negative source index counted from the end) and the scatter's
  indices as columns, the edge values as a column, the all-zero node array.
-/
import proofs.«148761_j13357348290975_2_alg».proof.Proof.Gen.KernelIdeal
import Idealize.ShloMosaic.PureOps.Ideal

noncomputable section

namespace Cert.KernelIdeal.Val

open Cert.KernelIdeal Cert.KernelIdeal.Gen Idealize.ShloMosaic Idealize.SL.Sem

/-- The target node of every edge: row 0 of the index array, as a vector. -/
def rowV (a0 : IVec S2x3200000 32) : IVec S3200000 32 :=
  shapeCast _ (extractStridedSlice S1x3200000 ![0, 0] a0 slices_S2x3200000_S1x3200000_0_0) shapeCasts_S1x3200000_S3200000

/-- The source node of every edge: row 1 of the index array, as a vector. -/
def colV (a0 : IVec S2x3200000 32) : IVec S3200000 32 :=
  shapeCast _ (extractStridedSlice S1x3200000 ![1, 0] a0 slices_S2x3200000_S1x3200000_1_0) shapeCasts_S1x3200000_S3200000

/-- The gather's start indices: a negative source index counted from the end, laid as one column. -/
def wrapCol (col : IVec S3200000 32) : IVec S3200000x1 32 :=
  broadcastInDim S3200000x1 ![0] bcast_S3200000_S3200000x1_0
    (select (cmpi .slt col (broadcastInDim S3200000 ![] bcast_S_S3200000 (constantI S_ 32 0#32)))
      (addi col (broadcastInDim S3200000 ![] bcast_S_S3200000 (constantI S_ 32 100000#32))) col)

/-- The scatter's indices: the target nodes laid as one column. -/
def rowCol (row : IVec S3200000 32) : IVec S3200000x1 32 :=
  broadcastInDim S3200000x1 ![0] bcast_S3200000_S3200000x1_0 row

/-- The edge values laid as one column. -/
def vals2d (a1 : FVec Ideal S3200000 .f32) : FVec Ideal S3200000x1 .f32 :=
  broadcastInDim S3200000x1 ![0] bcast_S3200000_S3200000x1_0 a1

/-- The all-zero node array the per-node sums start from. -/
def zeros : FVec Ideal S100000x64 .f32 :=
  broadcastInDim S100000x64 ![] bcast_S_S100000x64 (constant (F := Ideal) S_ .f32 0x00000000#32)

/-- The rows of `base` at the edges' source nodes, one row per edge. -/
def gatherRows (base : FVec Ideal S100000x64 .f32) (col : IVec S3200000 32) :
    FVec Ideal S3200000x64 .f32 :=
  Host.gather gather_S100000x64_S3200000x1_S3200000x64_1_0_n_n_0_1_164 base (wrapCol col)

/-- The per-edge rows `u` summed per target node. -/
def sumPerNode (row : IVec S3200000 32) (u : FVec Ideal S3200000x64 .f32) :
    FVec Ideal S100000x64 .f32 :=
  Host.scatterAdd (F := Ideal) (φ := .f32) scatter_S100000x64_S3200000x1_S3200000x64_1_0_0_1 zeros (rowCol row) u

end Cert.KernelIdeal.Val

end
-- ==== Proof.Chain.lean ====
/-
  The kernel program's result as one function of its five argument arrays.

  Between the launch and the return the program alternates four passes on the device with three stretches of host
  operations. At every boundary the buffers that matter later are read here as functions of the buffers at the boundary
  before: a pass leaves its output array at its whole-array function of its two input arrays and every other buffer as
  it was; a host stretch leaves each buffer it writes at its operations' value. Walking back from the return to the
  launch gives the result: projection, twice "gather the source rows, scale by the edge values, sum per target node",
  bias.
-/
import proofs.«148761_j13357348290975_2_alg».proof.Proof.Gen.KernelIdeal.Frame
import proofs.«148761_j13357348290975_2_alg».proof.Proof.ProjPass
import proofs.«148761_j13357348290975_2_alg».proof.Proof.ScalePass1
import proofs.«148761_j13357348290975_2_alg».proof.Proof.ScalePass2
import proofs.«148761_j13357348290975_2_alg».proof.Proof.BiasPass
import proofs.«148761_j13357348290975_2_alg».proof.Proof.HostFns
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- One propagation step: every edge's source row times the edge's value, summed per target node. -/
def prop (base : FVec Ideal S100000x64 .f32) (row col : IVec S3200000 32)
    (v : FVec Ideal S3200000x1 .f32) : FVec Ideal S100000x64 .f32 :=
  sumPerNode row (scaleRows (gatherRows base col) v)

/-- The kernel program's result: projection, two propagation steps, bias. -/
def kerOut (a0 : IVec S2x3200000 32) (a1 : FVec Ideal S3200000 .f32)
    (a2 : FVec Ideal S100000x128 .f32) (a3 : FVec Ideal S128x64 .f32)
    (a4 : FVec Ideal S1x64 .f32) : FVec Ideal S100000x64 .f32 :=
  addBias (prop (prop (dense a2 a3) (rowV a0) (colV a0) (vals2d a1)) (rowV a0) (colV a0) (vals2d a1)) a4

/-! ## After the projection pass -/

theorem b1_v0 (c : Dev nD) : W1 m ρ c (Proc.devRef .tc main_v0)
    = dense (m ((c : Thread nD τ).loc main_arg2)) (m ((c : Thread nD τ).loc main_arg3)) :=
  (W1_arr m ρ c 2).trans (finalProj (V0 m ρ) c)
theorem b1_arg0 (c : Dev nD) : W1 m ρ c (Proc.devRef .tc main_arg0) = m ((c : Thread nD τ).loc main_arg0) :=
  W1_of_ne m ρ c main_arg0 (by decide)
theorem b1_arg1 (c : Dev nD) : W1 m ρ c (Proc.devRef .tc main_arg1) = m ((c : Thread nD τ).loc main_arg1) :=
  W1_of_ne m ρ c main_arg1 (by decide)
theorem b1_arg4 (c : Dev nD) : W1 m ρ c (Proc.devRef .tc main_arg4) = m ((c : Thread nD τ).loc main_arg4) :=
  W1_of_ne m ρ c main_arg4 (by decide)

/-! ## After the first host stretch -/

theorem b2_v12 (c : Dev nD) : W2 m ρ c (Proc.devRef .tc main_v12)
    = gatherRows (W1 m ρ c (Proc.devRef .tc main_v0)) (colV (W1 m ρ c (Proc.devRef .tc main_arg0))) := by
  show StableHlo.after hostOps1 (W1 m ρ c) (Proc.devRef .tc main_v12) = _
  after_results_simp <;> rfl
theorem b2_v5 (c : Dev nD) : W2 m ρ c (Proc.devRef .tc main_v5) = vals2d (W1 m ρ c (Proc.devRef .tc main_arg1)) := by
  show StableHlo.after hostOps1 (W1 m ρ c) (Proc.devRef .tc main_v5) = _
  after_results_simp <;> rfl
theorem b2_v2 (c : Dev nD) : W2 m ρ c (Proc.devRef .tc main_v2) = rowV (W1 m ρ c (Proc.devRef .tc main_arg0)) := by
  show StableHlo.after hostOps1 (W1 m ρ c) (Proc.devRef .tc main_v2) = _
  after_results_simp <;> rfl
theorem b2_v4 (c : Dev nD) : W2 m ρ c (Proc.devRef .tc main_v4) = colV (W1 m ρ c (Proc.devRef .tc main_arg0)) := by
  show StableHlo.after hostOps1 (W1 m ρ c) (Proc.devRef .tc main_v4) = _
  after_results_simp <;> rfl
theorem b2_arg4 (c : Dev nD) : W2 m ρ c (Proc.devRef .tc main_arg4) = W1 m ρ c (Proc.devRef .tc main_arg4) := by
  show StableHlo.after hostOps1 (W1 m ρ c) (Proc.devRef .tc main_arg4) = _
  after_results_simp <;> rfl

/-! ## After the first scaling pass -/

theorem b3_v13 (c : Dev nD) : W3 m ρ c (Proc.devRef .tc main_v13)
    = scaleRows (W2 m ρ c (Proc.devRef .tc main_v12)) (W2 m ρ c (Proc.devRef .tc main_v5)) :=
  (W3_arr m ρ c 2).trans (finalScale1 (V2 m ρ) c)
theorem b3_v2 (c : Dev nD) : W3 m ρ c (Proc.devRef .tc main_v2) = W2 m ρ c (Proc.devRef .tc main_v2) :=
  W3_of_ne m ρ c main_v2 (by decide)
theorem b3_v4 (c : Dev nD) : W3 m ρ c (Proc.devRef .tc main_v4) = W2 m ρ c (Proc.devRef .tc main_v4) :=
  W3_of_ne m ρ c main_v4 (by decide)
/-- The value column is an input of the pass: no grid point writes it back, so it is as the pass found it. -/
theorem b3_v5 (c : Dev nD) : W3 m ρ c (Proc.devRef .tc main_v5) = W2 m ρ c (Proc.devRef .tc main_v5) :=
  (W3_arr m ρ c 1).trans (funext fun i =>
    ((dat1 (V2 m ρ) c).arrAt_apply_of_forall_not_mem 1 cfg1.N i
      fun t _ hf => (Bool.false_ne_true (hf : false = true)).elim).trans (congrFun (A_eq1 (V2 m ρ) c 1) i))
theorem b3_arg4 (c : Dev nD) : W3 m ρ c (Proc.devRef .tc main_arg4) = W2 m ρ c (Proc.devRef .tc main_arg4) :=
  W3_of_ne m ρ c main_arg4 (by decide)

/-! ## After the second host stretch -/

theorem b4_v23 (c : Dev nD) : W4 m ρ c (Proc.devRef .tc main_v23)
    = gatherRows (sumPerNode (W3 m ρ c (Proc.devRef .tc main_v2)) (W3 m ρ c (Proc.devRef .tc main_v13)))
        (W3 m ρ c (Proc.devRef .tc main_v4)) := by
  show StableHlo.after hostOps2 (W3 m ρ c) (Proc.devRef .tc main_v23) = _
  after_results_simp <;> rfl
theorem b4_v5 (c : Dev nD) : W4 m ρ c (Proc.devRef .tc main_v5) = W3 m ρ c (Proc.devRef .tc main_v5) := by
  show StableHlo.after hostOps2 (W3 m ρ c) (Proc.devRef .tc main_v5) = _
  after_results_simp <;> rfl
theorem b4_v2 (c : Dev nD) : W4 m ρ c (Proc.devRef .tc main_v2) = W3 m ρ c (Proc.devRef .tc main_v2) := by
  show StableHlo.after hostOps2 (W3 m ρ c) (Proc.devRef .tc main_v2) = _
  after_results_simp <;> rfl
theorem b4_arg4 (c : Dev nD) : W4 m ρ c (Proc.devRef .tc main_arg4) = W3 m ρ c (Proc.devRef .tc main_arg4) := by
  show StableHlo.after hostOps2 (W3 m ρ c) (Proc.devRef .tc main_arg4) = _
  after_results_simp <;> rfl

/-! ## After the second scaling pass -/

theorem b5_v24 (c : Dev nD) : W5 m ρ c (Proc.devRef .tc main_v24)
    = scaleRows (W4 m ρ c (Proc.devRef .tc main_v23)) (W4 m ρ c (Proc.devRef .tc main_v5)) :=
  (W5_arr m ρ c 2).trans (finalScale2 (V4 m ρ) c)
theorem b5_v2 (c : Dev nD) : W5 m ρ c (Proc.devRef .tc main_v2) = W4 m ρ c (Proc.devRef .tc main_v2) :=
  W5_of_ne m ρ c main_v2 (by decide)
theorem b5_arg4 (c : Dev nD) : W5 m ρ c (Proc.devRef .tc main_arg4) = W4 m ρ c (Proc.devRef .tc main_arg4) :=
  W5_of_ne m ρ c main_arg4 (by decide)

/-! ## After the third host stretch -/

theorem b6_v27 (c : Dev nD) : W6 m ρ c (Proc.devRef .tc main_v27)
    = sumPerNode (W5 m ρ c (Proc.devRef .tc main_v2)) (W5 m ρ c (Proc.devRef .tc main_v24)) := by
  show StableHlo.after hostOps3 (W5 m ρ c) (Proc.devRef .tc main_v27) = _
  after_results_simp <;> rfl
theorem b6_arg4 (c : Dev nD) : W6 m ρ c (Proc.devRef .tc main_arg4) = W5 m ρ c (Proc.devRef .tc main_arg4) := by
  show StableHlo.after hostOps3 (W5 m ρ c) (Proc.devRef .tc main_arg4) = _
  after_results_simp <;> rfl

/-! ## After the bias pass -/

theorem b7_v28 (c : Dev nD) : W7 m ρ c (Proc.devRef .tc main_v28)
    = addBias (W6 m ρ c (Proc.devRef .tc main_v27)) (W6 m ρ c (Proc.devRef .tc main_arg4)) :=
  (W7_arr m ρ c 2).trans (finalBias (V6 m ρ) c)

/-! ## From the return back to the launch -/

/-- The result buffer at the return is `kerOut` of the argument arrays at the launch. -/
theorem out_eq (c : Dev nD) : W7 m ρ c (Proc.devRef .tc main_v28)
    = kerOut (m ((c : Thread nD τ).loc main_arg0)) (m ((c : Thread nD τ).loc main_arg1)) (m ((c : Thread nD τ).loc main_arg2))
        (m ((c : Thread nD τ).loc main_arg3)) (m ((c : Thread nD τ).loc main_arg4)) := by
  rw [b7_v28, b6_v27, b6_arg4, b5_v24, b5_v2, b5_arg4, b4_v23, b4_v5, b4_v2, b4_arg4, b3_v13, b3_v2, b3_v4, b3_v5, b3_arg4,
    b2_v12, b2_v5, b2_v2, b2_v4, b2_arg4, b1_v0, b1_arg0, b1_arg1, b1_arg4]
  rfl

end Cert.KernelIdeal.Val

end
-- ==== Proof.RefValue.lean ====
/-
  The reference program's result as one function of its five argument arrays.

  The reference computes the dense projection, then twice the propagation step "gather the source node's row for every
  edge, multiply it by the edge's value, add the rows up per target node", then adds the bias to every row. Each step is
  named here, so that the whole result is `refOut`, and the reference's run ends with its result buffer at `refOut` of
  the argument arrays.
-/
import proofs.«148761_j13357348290975_2_alg».proof.Proof.Gen.ReferenceIdeal.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem

/-- The target node of every edge: row 0 of the index array, as a vector. -/
def rowV (a0 : IVec S2x3200000 32) : IVec S3200000 32 :=
  shapeCast _ (extractStridedSlice S1x3200000 ![0, 0] a0 slices_S2x3200000_S1x3200000_0_0) shapeCasts_S1x3200000_S3200000

/-- The source node of every edge: row 1 of the index array, as a vector. -/
def colV (a0 : IVec S2x3200000 32) : IVec S3200000 32 :=
  shapeCast _ (extractStridedSlice S1x3200000 ![1, 0] a0 slices_S2x3200000_S1x3200000_1_0) shapeCasts_S1x3200000_S3200000

/-- The gather's start indices: a negative source index counted from the end, laid as one column. -/
def wrapCol (col : IVec S3200000 32) : IVec S3200000x1 32 :=
  broadcastInDim S3200000x1 ![0] bcast_S3200000_S3200000x1_0
    (select (cmpi .slt col (broadcastInDim S3200000 ![] bcast_S_S3200000 (constantI S_ 32 0#32)))
      (addi col (broadcastInDim S3200000 ![] bcast_S_S3200000 (constantI S_ 32 100000#32))) col)

/-- The scatter's indices: the target nodes laid as one column. -/
def rowCol (row : IVec S3200000 32) : IVec S3200000x1 32 :=
  broadcastInDim S3200000x1 ![0] bcast_S3200000_S3200000x1_0 row

/-- The edge values laid as one column. -/
def vals2d (a1 : FVec Ideal S3200000 .f32) : FVec Ideal S3200000x1 .f32 :=
  broadcastInDim S3200000x1 ![0] bcast_S3200000_S3200000x1_0 a1

/-- The all-zero node array the per-node sums start from. -/
def zeros : FVec Ideal S100000x64 .f32 :=
  broadcastInDim S100000x64 ![] bcast_S_S100000x64 (constant (F := Ideal) S_ .f32 0x00000000#32)

/-- One propagation step: every edge's source row times the edge's value, summed per target node. -/
def prop (base : FVec Ideal S100000x64 .f32) (row col : IVec S3200000 32)
    (v : FVec Ideal S3200000x1 .f32) : FVec Ideal S100000x64 .f32 :=
  Host.scatterAdd (F := Ideal) (φ := .f32) scatter_S100000x64_S3200000x1_S3200000x64_1_0_0_1 zeros (rowCol row)
    (mulf (F := Ideal) (φ := .f32) (broadcastInDim S3200000x64 ![0, 1] bcast_S3200000x1_S3200000x64_0_1 v)
      (Host.gather gather_S100000x64_S3200000x1_S3200000x64_1_0_n_n_0_1_164 base (wrapCol col)))

/-- The reference's result: projection, two propagation steps, bias. -/
def refOut (a0 : IVec S2x3200000 32) (a1 : FVec Ideal S3200000 .f32)
    (a2 : FVec Ideal S100000x128 .f32) (a3 : FVec Ideal S128x64 .f32)
    (a4 : FVec Ideal S1x64 .f32) : FVec Ideal S100000x64 .f32 :=
  addf (F := Ideal) (φ := .f32) (prop (prop (Host.dotGeneral (F := Ideal) (φ₁ := .f32) (φ₂ := .f32) dot_S100000x128_S128x64_S100000x64_1_0_0_1_n_n none a2 a3) (rowV a0) (colV a0) (vals2d a1))
      (rowV a0) (colV a0) (vals2d a1))
    (broadcastInDim S100000x64 ![0, 1] bcast_S1x64_S100000x64_0_1 a4)

/-- The reference's run ends with its result at `refOut` of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

end Cert.ReferenceIdeal.RefValue

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«148761_j13357348290975_2_alg».proof.Proof.LibDotIdx
import proofs.«148761_j13357348290975_2_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.Bridge.lean ====
/-
  The kernel program's result and the reference's are one function of the argument arrays.

  Step by step the two programs do the same thing, in different spellings. The projection: the sum over the channels
  is the host's matrix product read at an entry. The edge scaling: the kernel multiplies the gathered entry by the
  edge's value, the reference the value by the gathered entry — multiplication of extended reals commutes — and the
  reference's value column laid along the 64 columns reads, at (e, q), the value of edge e. The bias: the one-row bias
  laid down the rows reads, at (r, q), the bias of column q. The index preparation, the gather and the per-node sum are
  the same host operations in both programs.
-/
import proofs.«148761_j13357348290975_2_alg».proof.Proof.Chain
import proofs.«148761_j13357348290975_2_alg».proof.Proof.RefValue
import proofs.«148761_j13357348290975_2_alg».proof.Proof.LibRowOps
import Idealize.ShloMosaic.Lib.KernelVsHost

set_option maxRecDepth 16384

noncomputable section

namespace Cert.Bridge

open Idealize.ShloMosaic Idealize.ShloMosaic.ValueIdx
open Cert.KernelIdeal.Val

/-- The projection: the sum over the channels is the host's matrix product. -/
theorem dense_eq (a2 : FVec Ideal Cert.ReferenceIdeal.S100000x128 .f32)
    (a3 : FVec Ideal Cert.ReferenceIdeal.S128x64 .f32) :
    dense a2 a3 = Host.dotGeneral (F := Ideal) (φ₁ := .f32) (φ₂ := .f32) Cert.ReferenceIdeal.dot_S100000x128_S128x64_S100000x64_1_0_0_1_n_n none a2 a3 := by
  funext i
  obtain ⟨p, q, rfl⟩ : ∃ (p : Fin 100000) (q : Fin 64), i = ix2 p q := ⟨i 0, i 1, eq_ix2 i⟩
  exact (Cert.LibRowOps.dotGeneral_plain_apply (m := 100000) (k := 128) (n := 64) (φ₁ := .f32) (φ₂ := .f32) _ none a2 a3 p q).symm

/-- The edge scaling: gathered entry times value is value times gathered entry. -/
theorem scale_eq (g : FVec Ideal Cert.ReferenceIdeal.S3200000x64 .f32)
    (v : FVec Ideal Cert.ReferenceIdeal.S3200000x1 .f32) :
    scaleRows g v = mulf (F := Ideal) (φ := .f32) (broadcastInDim Cert.ReferenceIdeal.S3200000x64 ![0, 1]
      Cert.ReferenceIdeal.Facts₀.bcast_S3200000x1_S3200000x64_0_1 v) g := by
  funext i
  obtain ⟨p, q, rfl⟩ : ∃ (p : Fin 3200000) (q : Fin 64), i = ix2 p q := ⟨i 0, i 1, eq_ix2 i⟩
  show (g (ix2 p q) : Ideal .f32) * v (ix2 p (0 : Fin 1))
    = FloatOps.mulf (F := Ideal) (broadcastInDim Cert.ReferenceIdeal.S3200000x64 ![0, 1]
        Cert.ReferenceIdeal.Facts₀.bcast_S3200000x1_S3200000x64_0_1 v (ix2 p q)) (g (ix2 p q))
  rw [Cert.LibRowOps.colBcast_host_apply (α := Ideal .f32) (a := 3200000) (b := 64) v
    Cert.ReferenceIdeal.Facts₀.bcast_S3200000x1_S3200000x64_0_1 p q]
  exact mul_comm _ _

/-- The bias: the one-row bias laid down the rows reads the bias of the entry's column. -/
theorem bias_eq (x : FVec Ideal Cert.ReferenceIdeal.S100000x64 .f32)
    (b : FVec Ideal Cert.ReferenceIdeal.S1x64 .f32) :
    addBias x b = addf (F := Ideal) (φ := .f32) x (broadcastInDim Cert.ReferenceIdeal.S100000x64 ![0, 1]
      Cert.ReferenceIdeal.Facts₀.bcast_S1x64_S100000x64_0_1 b) := by
  funext i
  obtain ⟨p, q, rfl⟩ : ∃ (p : Fin 100000) (q : Fin 64), i = ix2 p q := ⟨i 0, i 1, eq_ix2 i⟩
  show (x (ix2 p q) : Ideal .f32) + b (ix2 (0 : Fin 1) q)
    = FloatOps.addf (F := Ideal) (x (ix2 p q)) (broadcastInDim Cert.ReferenceIdeal.S100000x64 ![0, 1]
        Cert.ReferenceIdeal.Facts₀.bcast_S1x64_S100000x64_0_1 b (ix2 p q))
  rw [broadcastInDim_oneRow_apply (α := Ideal .f32) (m := 100000) (n := 64) Cert.ReferenceIdeal.Facts₀.bcast_S1x64_S100000x64_0_1 b p q]
  rfl

/-- One propagation step is the same function in both programs. -/
theorem prop_eq (base : FVec Ideal Cert.ReferenceIdeal.S100000x64 .f32)
    (row col : IVec Cert.ReferenceIdeal.S3200000 32)
    (v : FVec Ideal Cert.ReferenceIdeal.S3200000x1 .f32) :
    Cert.KernelIdeal.Val.prop base row col v = Cert.ReferenceIdeal.RefValue.prop base row col v := by
  unfold Cert.KernelIdeal.Val.prop Cert.ReferenceIdeal.RefValue.prop sumPerNode
  rw [scale_eq]
  rfl

/-- The two results are one function of the argument arrays. -/
theorem out_eq (a0 : IVec Cert.ReferenceIdeal.S2x3200000 32)
    (a1 : FVec Ideal Cert.ReferenceIdeal.S3200000 .f32)
    (a2 : FVec Ideal Cert.ReferenceIdeal.S100000x128 .f32)
    (a3 : FVec Ideal Cert.ReferenceIdeal.S128x64 .f32)
    (a4 : FVec Ideal Cert.ReferenceIdeal.S1x64 .f32) :
    kerOut a0 a1 a2 a3 a4 = Cert.ReferenceIdeal.RefValue.refOut a0 a1 a2 a3 a4 := by
  unfold kerOut Cert.ReferenceIdeal.RefValue.refOut
  rw [bias_eq, prop_eq, prop_eq, dense_eq]
  rfl

end Cert.Bridge

end
-- ==== Proof.lean ====
/-
  The certificate of one graph-propagation layer: a dense projection of the node features, two propagation steps over
  the edge list (gather every edge's source row, scale it by the edge's value, sum per target node), and a bias.

  The kernel program runs the projection, each step's scaling and the bias as four tiled passes on the device, the
  gathers and the per-node sums as host operations between them; the reference is the same computation written as one
  host program. On the extended reals the two results are one function of the five argument arrays: every pass leaves
  its output array at a whole-array function of its inputs (a block of the output depends only on the matching blocks
  of the inputs, and the blocks tile the array), the host operations between the passes are the reference's own, and the
  three arithmetic steps agree entry by entry — the projection is the matrix product, the scaling differs only in the
  order of a product, the bias is added to every row. No law used needs finite inputs. The three frames are the
  generated ones (the reference's is its run with the result dropped); the idealization rewrote nothing, so there is
  nothing to preserve.
-/
import proofs.«148761_j13357348290975_2_alg».proof.Defs
import proofs.«148761_j13357348290975_2_alg».proof.Proof.Gen.Kernel
import proofs.«148761_j13357348290975_2_alg».proof.Proof.Gen.Kernel.Skeleton
import proofs.«148761_j13357348290975_2_alg».proof.Proof.Gen.Kernel.Launch
import proofs.«148761_j13357348290975_2_alg».proof.Proof.Gen.Kernel.Points
import proofs.«148761_j13357348290975_2_alg».proof.Proof.Gen.Kernel.Frame
import proofs.«148761_j13357348290975_2_alg».proof.Proof.Gen.KernelIdeal
import proofs.«148761_j13357348290975_2_alg».proof.Proof.Gen.KernelIdeal.Skeleton
import proofs.«148761_j13357348290975_2_alg».proof.Proof.Gen.KernelIdeal.Launch
import proofs.«148761_j13357348290975_2_alg».proof.Proof.Gen.KernelIdeal.Points
import proofs.«148761_j13357348290975_2_alg».proof.Proof.Gen.KernelIdeal.Frame
import proofs.«148761_j13357348290975_2_alg».proof.Proof.Gen.ReferenceIdeal
import proofs.«148761_j13357348290975_2_alg».proof.Proof.Gen.ReferenceIdeal.Run
import proofs.«148761_j13357348290975_2_alg».proof.Proof.Gen.Pre_finite_inputs
import proofs.«148761_j13357348290975_2_alg».proof.Proof.KernelRun
import proofs.«148761_j13357348290975_2_alg».proof.Proof.Chain
import proofs.«148761_j13357348290975_2_alg».proof.Proof.RefValue
import proofs.«148761_j13357348290975_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at one function of the argument arrays: the kernel program at
    `kerOut`, the reference at `refOut`, and the two are equal (`Cert.Bridge.out_eq`). -/
theorem algebraic : Cert.algebraic_KernelIdeal_ReferenceIdeal := by
  intro m ρ m' ρ' _ hagree
  refine ⟨fun c => Cert.KernelIdeal.Val.kerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Val.out_eq m ρ c), (h c).2⟩)
      (Cert.KernelIdeal.Val.run_result (F := Ideal) m ρ)
  · refine (θ_run Cert.ReferenceIdeal.defs _ _).mono (fun r h c => ⟨(h c).1.trans ?_, (h c).2⟩)
      (Cert.ReferenceIdeal.RefValue.run m' ρ')
    rw [(hagree c).1, (hagree c).2.1, (hagree c).2.2.1, (hagree c).2.2.2.1, (hagree c).2.2.2.2]
    exact (Cert.Bridge.out_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
